-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S512x512 : Shape := ⟨2, ![512, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S1024x512 .f32) (main_arg1 : FVec F S1024x512 .f32) (main_arg2 : FVec F S512x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Kernel.lean ====
abbrev S1024x512 : Shape := ⟨2, ![1024, 512]⟩
abbrev S512x512 : Shape := ⟨2, ![512, 512]⟩
abbrev S16x512 : Shape := ⟨2, ![16, 512]⟩
abbrev S16x512x1 : Shape := ⟨3, ![16, 512, 1]⟩
abbrev S16x1x512 : Shape := ⟨3, ![16, 1, 512]⟩
abbrev S16x512x512 : Shape := ⟨3, ![16, 512, 512]⟩
abbrev S16 : Shape := ⟨1, ![16]⟩
abbrev S16x1 : Shape := ⟨2, ![16, 1]⟩

abbrev nBuf : Space → Nat
  | .hbm => 5
  | .vmem => 9
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S512x512, .f32⟩
  | .hbm, ⟨3, _⟩ => ⟨S1024x512, .f32⟩
  | .hbm, ⟨4, _⟩ => ⟨S1024x512, .f32⟩
  | .local _ .vmem, ⟨0, _⟩ => ⟨S16x512, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S512x512, .f32⟩
  | .local _ .vmem, ⟨5, _⟩ => ⟨S16x512, .f32⟩
  | .local _ .vmem, ⟨6, _⟩ => ⟨S16x512, .f32⟩
  | .local _ .vmem, ⟨7, _⟩ => ⟨S16x512, .f32⟩
  | .local _ .vmem, ⟨8, _⟩ => ⟨S16x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S16x512_S16x512_0_0 : ∀ a, (![0, 0] : Fin 2 → Nat) a + S16x512.size a ≤ S16x512.size a
  h_S16x512 : 0 < S16x512.numel
  inb_S512x512_S512x512_0_0 : ∀ a, (![0, 0] : Fin 2 → Nat) a + S512x512.size a ≤ S512x512.size a
  h_S512x512 : 0 < S512x512.numel
  shapeCasts_S16x512_S16x512x1 : S16x512.ShapeCasts S16x512x1
  shapeCasts_S16x512_S16x1x512 : S16x512.ShapeCasts S16x1x512
  broadcasts_S16x512x1_S16x512x512 : S16x512x1.Broadcasts S16x512x512
  broadcasts_S16x1x512_S16x512x512 : S16x1x512.Broadcasts S16x512x512
  reduces_S16x512x512_S16x512 : S16x512x512.Reduces [2] S16x512
  reduces_S16x512x512_S16x512_2 : S16x512x512.Reduces [1] S16x512
  reduces_S16x512_S16 : S16x512.Reduces [1] S16
  shapeCasts_S16_S16x1 : S16.ShapeCasts S16x1
  broadcasts_S16x1_S16x512 : S16x1.Broadcasts S16x512
  dot_S16x512_S512x512_S16x512_1_0_0_1_n_n_wf : DotDims.WF S16x512 S512x512 S16x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512.size a ≤ S1024x512.size a
  hwx0_0 : ∀ i : grid0.Coords, EltTy.bits .f32 = 32 ∨ (Rect.block (s := S1024x512) S16x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x512.size a ≤ S1024x512.size a
  hwx0_1 : ∀ i : grid0.Coords, EltTy.bits .f32 = 32 ∨ (Rect.block (s := S1024x512) S16x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x512.size a ≤ S1024x512.size a
  hwx0_3 : ∀ i : grid0.Coords, EltTy.bits .f32 = 32 ∨ (Rect.block (s := S1024x512) S16x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x512.size a ≤ S1024x512.size a
  hwx0_4 : ∀ i : grid0.Coords, EltTy.bits .f32 = 32 ∨ (Rect.block (s := S1024x512) S16x512.size (cc0_transform_4 i) (hinb0_4 i)).WholeWords (EltTy.packing .f32)

variable [Facts₀]

def dot_S16x512_S512x512_S16x512_1_0_0_1_n_n : DotDims S16x512 S512x512 S16x512 where
  lhsContracting := [1]
  rhsContracting := [0]
  lhsNonContracting := [0]
  rhsNonContracting := [1]
  lhsBatch := []
  rhsBatch := []
  wf := dot_S16x512_S512x512_S16x512_1_0_0_1_n_n_wf

abbrev win0_0 : Pipeline.Window sig grid0 :=
  Pipeline.Window.ofSpec (Memref.whole main_arg0) S16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S16x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S16x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x512 : Shape := ⟨2, ![1024, 512]⟩
abbrev S512x512 : Shape := ⟨2, ![512, 512]⟩
abbrev S1024x512x1 : Shape := ⟨3, ![1024, 512, 1]⟩
abbrev S1024x1x512 : Shape := ⟨3, ![1024, 1, 512]⟩
abbrev S1024x512x512 : Shape := ⟨3, ![1024, 512, 512]⟩
abbrev S_ : Shape := ⟨0, ![]⟩
abbrev S1024 : Shape := ⟨1, ![1024]⟩
abbrev S1024x1 : Shape := ⟨2, ![1024, 1]⟩

abbrev nBuf : Space → Nat
  | .hbm => 50
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S512x512, .f32⟩
  | .hbm, ⟨3, _⟩ => ⟨S1024x512, .f32⟩
  | .hbm, ⟨4, _⟩ => ⟨S1024x512x1, .f32⟩
  | .hbm, ⟨5, _⟩ => ⟨S1024x1x512, .f32⟩
  | .hbm, ⟨6, _⟩ => ⟨S1024x512x512, .f32⟩
  | .hbm, ⟨7, _⟩ => ⟨S1024x512x512, .f32⟩
  | .hbm, ⟨8, _⟩ => ⟨S1024x512x512, .f32⟩
  | .hbm, ⟨9, _⟩ => ⟨S1024x512x512, .f32⟩
  | .hbm, ⟨10, _⟩ => ⟨S_, .f32⟩
  | .hbm, ⟨11, _⟩ => ⟨S1024x512, .f32⟩
  | .hbm, ⟨12, _⟩ => ⟨S_, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024, .f32⟩
  | .hbm, ⟨17, _⟩ => ⟨S_, .f32⟩
  | .hbm, ⟨18, _⟩ => ⟨S1024, .f32⟩
  | .hbm, ⟨19, _⟩ => ⟨S1024, .f32⟩
  | .hbm, ⟨20, _⟩ => ⟨S1024x1, .f32⟩
  | .hbm, ⟨21, _⟩ => ⟨S1024x512, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024, .f32⟩
  | .hbm, ⟨26, _⟩ => ⟨S1024x1, .f32⟩
  | .hbm, ⟨27, _⟩ => ⟨S1024x512, .f32⟩
  | .hbm, ⟨28, _⟩ => ⟨S1024x512, .f32⟩
  | .hbm, ⟨29, _⟩ => ⟨S_, .f32⟩
  | .hbm, ⟨30, _⟩ => ⟨S1024x512, .f32⟩
  | .hbm, ⟨31, _⟩ => ⟨S_, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024, .f32⟩
  | .hbm, ⟨36, _⟩ => ⟨S_, .f32⟩
  | .hbm, ⟨37, _⟩ => ⟨S1024, .f32⟩
  | .hbm, ⟨38, _⟩ => ⟨S1024, .f32⟩
  | .hbm, ⟨39, _⟩ => ⟨S1024x1, .f32⟩
  | .hbm, ⟨40, _⟩ => ⟨S1024x512, .f32⟩
  | .hbm, ⟨41, _⟩ => ⟨S1024x512, .f32⟩
  | .hbm, ⟨42, _⟩ => ⟨S1024x512, .f32⟩
  | .hbm, ⟨43, _⟩ => ⟨S_, .f32⟩
  | .hbm, ⟨44, _⟩ => ⟨S1024, .f32⟩
  | .hbm, ⟨45, _⟩ => ⟨S1024x1, .f32⟩
  | .hbm, ⟨46, _⟩ => ⟨S1024x512, .f32⟩
  | .hbm, ⟨47, _⟩ => ⟨S1024x512, .f32⟩
  | .hbm, ⟨48, _⟩ => ⟨S1024x512, .f32⟩
  | .hbm, ⟨49, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  bcast_S1024x512_S1024x512x1_0_1 : S1024x512.BroadcastsInDim S1024x512x1 (![0, 1] : Fin 2 → Fin S1024x512x1.rank)
  bcast_S1024x512_S1024x1x512_0_2 : S1024x512.BroadcastsInDim S1024x1x512 (![0, 2] : Fin 2 → Fin S1024x1x512.rank)
  bcast_S1024x512x1_S1024x512x512_0_1_2 : S1024x512x1.BroadcastsInDim S1024x512x512 (![0, 1, 2] : Fin 3 → Fin S1024x512x512.rank)
  bcast_S1024x1x512_S1024x512x512_0_1_2 : S1024x1x512.BroadcastsInDim S1024x512x512 (![0, 1, 2] : Fin 3 → Fin S1024x512x512.rank)
  reducesTo_S1024x512x512_S1024x512_d2 : S1024x512x512.ReducesTo [2] S1024x512
  h_S_ : 0 < S_.numel
  bcast_S_S1024x512 : S_.BroadcastsInDim S1024x512 (![] : Fin 0 → Fin S1024x512.rank)
  reducesTo_S1024x512_S1024_d1 : S1024x512.ReducesTo [1] S1024
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x512_0_1 : S1024x1.BroadcastsInDim S1024x512 (![0, 1] : Fin 2 → Fin S1024x512.rank)
  reducesTo_S1024x512x512_S1024x512_d1 : S1024x512x512.ReducesTo [1] S1024x512
  dot_S1024x512_S512x512_S1024x512_1_0_0_1_n_n_wf : DotDims.WF S1024x512 S512x512 S1024x512 [1] [0] [0] [1] [] []

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

class Facts : Prop extends Facts₀ where

variable [Facts]
-- ==== Proof.Spec.lean ====
/-
  The mathematics of mutual attention on one pair of rows, over the extended reals.

  For a row `p` and a row `q` of length `d` and a square weight `w`:
    • the projected row `u = p · w`, `uᵢ = ∑ₖ pₖ · wₖᵢ`;
    • the table `Tᵢⱼ = tanh (uᵢ · qⱼ)` of the outer product of `u` and `q`;
    • its mean along `j` (one number per entry of `u`) and its mean along `i` (one per entry of `q`), each the sum
      divided by the count `d` as a float constant;
    • the softmax of each mean, in the shifted form `exp (fᵢ − M) / ∑ₖ exp (fₖ − M)` with `M` the maximum of `f` taken from
      `−∞` (and once more against `−∞`, as the programs do);
    • the two results, `pᵢ · softmax (mean along j)ᵢ` and `qⱼ · softmax (mean along i)ⱼ`.
  Every row of the `[B, d]` arrays is treated alike and independently, so the results over whole arrays are these row
  functions at each row. Nothing here depends on how a program tiles the rows or orders a sum.
-/
import Idealize.ShloMosaic.PureOps.Ideal
import Idealize.ShloMosaic.Lib.ValueIdx

noncomputable section

namespace Cert.MutualAttn

open Idealize.ShloMosaic Idealize.ShloMosaic.ValueIdx

/-- The number of entries averaged over, as the float constant both programs divide by. -/
abbrev count : EReal := Ideal.ofBits .f32 0x44000000#32
/-- The value a maximum starts from: the pattern of `−∞`. -/
abbrev negInf : EReal := Ideal.ofBits .f32 0xFF800000#32

variable {d : ℕ}

/-- The row `p` projected by the weight: `uᵢ = ∑ₖ pₖ · wₖᵢ`. -/
def proj (p : Fin d → EReal) (w : Fin d → Fin d → EReal) (i : Fin d) : EReal := ∑ k : Fin d, p k * w k i

/-- The table of the outer product under `tanh`: `Tᵢⱼ = tanh (uᵢ · qⱼ)`. -/
def table (u q : Fin d → EReal) (i j : Fin d) : EReal := Ideal.tanh (u i * q j)

/-- The table's mean along `j`: one number per entry `i` of `u`. -/
def meanAlongQ (u q : Fin d → EReal) (i : Fin d) : EReal := Ideal.div (∑ j : Fin d, table u q i j) count

/-- The table's mean along `i`: one number per entry `j` of `q`. -/
def meanAlongU (u q : Fin d → EReal) (j : Fin d) : EReal := Ideal.div (∑ i : Fin d, table u q i j) count

/-- The maximum a softmax shifts by: the fold of `max` over the row from `−∞`, and `max` with `−∞` once more. -/
def shift (f : Fin d → EReal) : EReal := max negInf ((Finset.univ : Finset (Fin d)).fold max negInf f)

/-- The numerator of the shifted softmax at `i`. -/
def expShifted (f : Fin d → EReal) (i : Fin d) : EReal := Ideal.exp (f i - shift f)

/-- The softmax of a row in its shifted form. -/
def softmax (f : Fin d → EReal) (i : Fin d) : EReal := Ideal.div (expShifted f i) (∑ k : Fin d, expShifted f k)

/-- The first result on one pair of rows: `p` weighted by the softmax of the mean along `q`'s axis. -/
def weightedP (p q : Fin d → EReal) (w : Fin d → Fin d → EReal) (i : Fin d) : EReal :=
  p i * softmax (meanAlongQ (proj p w) q) i

/-- The second result on one pair of rows: `q` weighted by the softmax of the mean along `u`'s axis. -/
def weightedQ (p q : Fin d → EReal) (w : Fin d → Fin d → EReal) (j : Fin d) : EReal :=
  q j * softmax (meanAlongU (proj p w) q) j

/-! ## Over whole arrays -/

variable {B : ℕ}

/-- Row `b` of a `[B, d]` array. -/
def rowOf (X : (⟨2, ![B, d]⟩ : Shape).Idx → EReal) (b : Fin B) : Fin d → EReal := fun k => X (ix2 b k)

/-- A `[d, d]` array as a function of its two coordinates. -/
def matOf (W : (⟨2, ![d, d]⟩ : Shape).Idx → EReal) : Fin d → Fin d → EReal := fun k i => W (ix2 k i)

/-- The first result array: row `b`, entry `i` is `weightedP` of rows `b` of the two inputs. -/
def resultP (P Q : (⟨2, ![B, d]⟩ : Shape).Idx → EReal) (W : (⟨2, ![d, d]⟩ : Shape).Idx → EReal) :
    (⟨2, ![B, d]⟩ : Shape).Idx → EReal :=
  fun idx => weightedP (rowOf P (idx 0)) (rowOf Q (idx 0)) (matOf W) (idx 1)

/-- The second result array: row `b`, entry `j` is `weightedQ` of rows `b` of the two inputs. -/
def resultQ (P Q : (⟨2, ![B, d]⟩ : Shape).Idx → EReal) (W : (⟨2, ![d, d]⟩ : Shape).Idx → EReal) :
    (⟨2, ![B, d]⟩ : Shape).Idx → EReal :=
  fun idx => weightedQ (rowOf P (idx 0)) (rowOf Q (idx 0)) (matOf W) (idx 1)

end Cert.MutualAttn

end
-- ==== Proof.LibColumnLayout.lean ====
/-
  Column vectors read at an index given by coordinates.

  A sum along the rows of an `[a, b]` array is an `[a]` vector; kept as a matrix it is the column `[a, 1]`, and a
  column is spread along the second axis to `[a, b]`. Each of these re-lays values without
  computing anything: the result at an index is the operand at one index, named here by coordinates.
    • `[a] → [a, 1]` (a shape cast): entry `(i, u)` is entry `i`, whatever the unit coordinate `u`;
    • `[a, 1] → [a, b]` (a broadcast): entry `(i, j)` is entry `(i, 0)`;
    • a sum along the second axis of an `[a, b]` array of extended reals: entry `i` is `∑ⱼ` of entry `(i, j)`.
  The companions for rows (`[a] → [1, a]`, `[1, b] → [a, b]`) and the matrix transpose are the library's.
-/
import Idealize.ShloMosaic.Lib.ValueLayout
import Idealize.ShloMosaic.PureOps.Ideal.Laws

namespace Cert.ColumnLayout

open Idealize.ShloMosaic Idealize.ShloMosaic.ValueIdx

variable {α : Type}

/-- An `[a]` array cast to the column `[a, 1]` reads, at `(i, u)`, the operand at `i`: both indices have the same
    row-major position, `i·1 + u = i` since `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A sum along the second axis of an `[a, b]` array of extended reals, from the zero accumulator, reads at `i` the sum
    over `j` of the entries `(i, j)`. The last hypothesis says that the accumulator's word, zero, is the neutral
    word of addition. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (i : Fin a) :
    multiReduction .add [1] ⟨1, ![a]⟩ src 0x00000000#32 h hφ hacc (ix1 i) = ∑ j : Fin b, src (ix2 i j) := by
  refine (Ideal.multiReduction_add_single src 0x00000000#32 h hφ hacc (ix1 i)).trans ?_
  show ∑ j : Fin b, src (h.lift (ix1 i) j) = ∑ j : Fin b, src (ix2 i j)
  refine Finset.sum_congr rfl fun j _ => congrArg src (funext fun c => Fin.ext ?_)
  match c with
  | ⟨0, _⟩ => rfl
  | ⟨1, _⟩ => rfl

end Cert.ColumnLayout
-- ==== Proof.LibRank3Layout.lean ====
/-
  Rank-3 layout operations read at coordinates — the forms a body meets when it compares every entry of an `[a, b]`
  block with every entry of a length-`n` vector and then flattens the two leading axes for a matrix product:

  • a TRAILING unit axis added by a shape cast, `[a, b] → [a, b, 1]` (`shapeCast_ab_ab1_apply`);
  • a vector laid along the LAST axis by a shape cast, `[n] → [1, 1, n]` (`shapeCast_n_11n_apply`);
  • the broadcast of the first along the last axis, `[a, b, 1] → [a, b, n]` (`broadcastTo_ab1_abn_apply`), and of the
    second along the two leading axes, `[1, 1, n] → [a, b, n]` (`broadcastTo_11n_abn_apply`);
  • the two composites, which read `(r, s, k)` at `(r, s)` of the block (`column_apply`) and at `k` of the vector
    (`row_apply`);
  • the two leading axes MERGED, `[a, b, n] → [m, n]` with `m = a·b`, and SPLIT again, `[m, d] → [a, b, d]`: row
    `j = r·b + s` of the flat array is row `(r, s)` of the stacked one (`shapeCast_abn_mn_apply`,
    `shapeCast_md_abd_apply`; the flat row is passed with the equation `j = r·b + s`, so that a literal extent such
    as `4096` need not be recognised as a product).

  Each is the library's `shapeCast_apply` (equal row-major positions) or `broadcastTo_apply` (a unit axis reads
  coordinate `0`) with both indices written by coordinates, at every extent.
-/
import Idealize.ShloMosaic.Lib.Pipeline.Value
import Idealize.ShloMosaic.Lib.ValueIdx

namespace Cert.Rank3Layout

open Idealize.ShloMosaic Idealize.ShloMosaic.ValueIdx

variable {α : Type}

/-- An `[a, b]` array cast to `[a, b, 1]` reads, at `(r, s, u)`, the operand at `(r, s)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (r : Fin a) (s : Fin b) (u : Fin 1) :
    shapeCast ⟨3, ![a, b, 1]⟩ x h (ix3 r s u) = x (ix2 r s) :=
  shapeCast_apply x h _ _ (by
    have hu : u.val = 0 := by omega
    rw [Shape.rowMajor_val_two, Shape.rowMajor_val_three]
    show r.val * b + s.val = (r.val * b + s.val) * 1 + u.val
    rw [hu, Nat.mul_one, Nat.add_zero])

/-- An `[n]` vector cast to `[1, 1, n]` reads, at `(u, u', k)`, the operand at `k`, whatever the unit coordinates. -/
theorem shapeCast_n_11n_apply {n : ℕ} (q : (⟨1, ![n]⟩ : Shape).Idx → α)
    (h : (⟨1, ![n]⟩ : Shape).ShapeCasts ⟨3, ![1, 1, n]⟩) (u u' : Fin 1) (k : Fin n) :
    shapeCast ⟨3, ![1, 1, n]⟩ q h (ix3 u u' k) = q (ix1 k) :=
  shapeCast_apply q h _ _ (by
    have hu : u.val = 0 := by omega
    have hu' : u'.val = 0 := by omega
    rw [Shape.rowMajor_val_one, Shape.rowMajor_val_three]
    show k.val = (u.val * 1 + u'.val) * n + k.val
    rw [hu, hu']; simp)

/-- An `[a, b, 1]` array broadcast to `[a, b, n]` reads, at `(r, s, k)`, the operand at `(r, s, 0)`. -/
theorem broadcastTo_ab1_abn_apply {a b n : ℕ} (y : (⟨3, ![a, b, 1]⟩ : Shape).Idx → α)
    (h : (⟨3, ![a, b, 1]⟩ : Shape).Broadcasts ⟨3, ![a, b, n]⟩) (r : Fin a) (s : Fin b) (k : Fin n) :
    broadcastTo ⟨3, ![a, b, n]⟩ y h (ix3 r s k) = y (ix3 r s (0 : Fin 1)) := by
  refine broadcastTo_apply y h (ix3 r s k) (ix3 r s (0 : Fin 1)) fun ax => ?_
  match ax with
  | ⟨0, _⟩ =>
    show r.val = if a = 1 then 0 else r.val
    split
    · have := r.isLt; omega
    · rfl
  | ⟨1, _⟩ =>
    show s.val = if b = 1 then 0 else s.val
    split
    · have := s.isLt; omega
    · rfl
  | ⟨2, _⟩ => rfl

/-- A `[1, 1, n]` array broadcast to `[a, b, n]` reads, at `(r, s, k)`, the operand at `(0, 0, k)`. -/
theorem broadcastTo_11n_abn_apply {a b n : ℕ} (q : (⟨3, ![1, 1, n]⟩ : Shape).Idx → α)
    (h : (⟨3, ![1, 1, n]⟩ : Shape).Broadcasts ⟨3, ![a, b, n]⟩) (r : Fin a) (s : Fin b) (k : Fin n) :
    broadcastTo ⟨3, ![a, b, n]⟩ q h (ix3 r s k) = q (ix3 (0 : Fin 1) (0 : Fin 1) k) := by
  refine broadcastTo_apply q h (ix3 r s k) (ix3 (0 : Fin 1) (0 : Fin 1) k) fun ax => ?_
  match ax with
  | ⟨0, _⟩ => rfl
  | ⟨1, _⟩ => rfl
  | ⟨2, _⟩ =>
    show k.val = if n = 1 then 0 else k.val
    split
    · have := k.isLt; omega
    · rfl

/-- An `[a, b]` block given a trailing unit axis and broadcast along it: `(r, s, k)` reads the block at `(r, s)`. -/
theorem column_apply {a b n : ℕ} (x : (⟨2, ![a, b]⟩ : Shape).Idx → α)
    (hc : (⟨2, ![a, b]⟩ : Shape).ShapeCasts ⟨3, ![a, b, 1]⟩) (hb : (⟨3, ![a, b, 1]⟩ : Shape).Broadcasts ⟨3, ![a, b, n]⟩)
    (r : Fin a) (s : Fin b) (k : Fin n) :
    broadcastTo ⟨3, ![a, b, n]⟩ (shapeCast ⟨3, ![a, b, 1]⟩ x hc) hb (ix3 r s k) = x (ix2 r s) :=
  (broadcastTo_ab1_abn_apply _ hb r s k).trans (shapeCast_ab_ab1_apply x hc r s 0)

/-- A length-`n` vector laid along the last axis and broadcast over the two leading ones: `(r, s, k)` reads it at `k`. -/
theorem row_apply {a b n : ℕ} (q : (⟨1, ![n]⟩ : Shape).Idx → α)
    (hc : (⟨1, ![n]⟩ : Shape).ShapeCasts ⟨3, ![1, 1, n]⟩) (hb : (⟨3, ![1, 1, n]⟩ : Shape).Broadcasts ⟨3, ![a, b, n]⟩)
    (r : Fin a) (s : Fin b) (k : Fin n) :
    broadcastTo ⟨3, ![a, b, n]⟩ (shapeCast ⟨3, ![1, 1, n]⟩ q hc) hb (ix3 r s k) = q (ix1 k) :=
  (broadcastTo_11n_abn_apply _ hb r s k).trans (shapeCast_n_11n_apply q hc 0 0 k)

/-- The two leading axes merged: an `[a, b, n]` array cast to `[m, n]` reads, at `(j, k)` with `j = r·b + s`, the
    operand at `(r, s, k)`. -/
theorem shapeCast_abn_mn_apply {a b n m : ℕ} (w : (⟨3, ![a, b, n]⟩ : Shape).Idx → α)
    (h : (⟨3, ![a, b, n]⟩ : Shape).ShapeCasts ⟨2, ![m, n]⟩) (r : Fin a) (s : Fin b) (k : Fin n) (j : Fin m)
    (hj : j.val = r.val * b + s.val) :
    shapeCast ⟨2, ![m, n]⟩ w h (ix2 j k) = w (ix3 r s k) :=
  shapeCast_apply w h _ _ (by
    rw [Shape.rowMajor_val_three, Shape.rowMajor_val_two]
    show (r.val * b + s.val) * n + k.val = j.val * n + k.val
    rw [hj])

/-- The leading axis split in two: an `[m, d]` array cast to `[a, b, d]` reads, at `(r, s, e)`, the operand at `(j, e)`
    with `j = r·b + s`. -/
theorem shapeCast_md_abd_apply {a b d m : ℕ} (z : (⟨2, ![m, d]⟩ : Shape).Idx → α)
    (h : (⟨2, ![m, d]⟩ : Shape).ShapeCasts ⟨3, ![a, b, d]⟩) (r : Fin a) (s : Fin b) (e : Fin d) (j : Fin m)
    (hj : j.val = r.val * b + s.val) :
    shapeCast ⟨3, ![a, b, d]⟩ z h (ix3 r s e) = z (ix2 j e) :=
  shapeCast_apply z h _ _ (by
    rw [Shape.rowMajor_val_two, Shape.rowMajor_val_three]
    show j.val * d + e.val = (r.val * b + s.val) * d + e.val
    rw [hj])

end Cert.Rank3Layout
-- ==== Proof.LibOuterLayout.lean ====
/-
  Layout operations and reductions of an OUTER-PRODUCT body, read at coordinates.

  A body that multiplies every entry of one row by every entry of another builds an `[a, b, n]` array from two
  matrices: the first, `[a, b]`, is given a trailing unit axis and spread along the last axis; the second, `[a, n]`,
  is given a MIDDLE unit axis and spread along the middle axis. It then sums the product along one of the two
  trailing axes, and takes a row's maximum for a softmax. None of these computes anything but the sums and the
  maximum; the lemmas name, by coordinates, which entries each result reads:
    • `[a, n] → [a, 1, n]` (a shape cast): entry `(r, u, k)` is entry `(r, k)`, whatever the unit coordinate;
    • `[a, 1, n] → [a, b, n]` (a broadcast): entry `(r, s, k)` is entry `(r, 0, k)`;
    • their composite: `(r, s, k)` reads the matrix at `(r, k)`;
    • a sum along the LAST axis of an `[a, b, n]` array of extended reals: entry `(r, s)` is `∑ₖ` of `(r, s, k)`;
    • a sum along the MIDDLE axis: entry `(r, k)` is `∑ₛ` of `(r, s, k)`;
    • a maximum along the second axis of an `[a, b]` array, from the accumulator's value: entry `r` is the fold of
      `max` over `j` of the entries `(r, j)` — for a vector reduction and for the host's one-operand reduce alike.
  The trailing-unit-axis forms (`[a, b] → [a, b, 1] → [a, b, n]`) and the column forms are in their own files.
-/
import Idealize.ShloMosaic.Lib.Pipeline.Value
import Idealize.ShloMosaic.Lib.ValueIdx
import Idealize.ShloMosaic.PureOps.Ideal.Laws

namespace Cert.OuterLayout

open Idealize.ShloMosaic Idealize.ShloMosaic.ValueIdx

variable {α : Type}

/-- An `[a, n]` array cast to `[a, 1, n]` reads, at `(r, u, k)`, the operand at `(r, k)`: the two indices have the same
    row-major position, `(r·1 + u)·n + k = r·n + k` since `u = 0`. -/
theorem shapeCast_an_a1n_apply {a n : ℕ} (x : (⟨2, ![a, n]⟩ : Shape).Idx → α)
    (h : (⟨2, ![a, n]⟩ : Shape).ShapeCasts ⟨3, ![a, 1, n]⟩) (r : Fin a) (u : Fin 1) (k : Fin n) :
    shapeCast ⟨3, ![a, 1, n]⟩ x h (ix3 r u k) = x (ix2 r k) :=
  shapeCast_apply x h _ _ (by
    have hu : u.val = 0 := by omega
    rw [Shape.rowMajor_val_two, Shape.rowMajor_val_three]
    show r.val * n + k.val = (r.val * 1 + u.val) * n + k.val
    rw [hu, Nat.mul_one, Nat.add_zero])

/-- An `[a, 1, n]` array broadcast to `[a, b, n]` reads, at `(r, s, k)`, the operand at `(r, 0, k)`. -/
theorem broadcastTo_a1n_abn_apply {a b n : ℕ} (y : (⟨3, ![a, 1, n]⟩ : Shape).Idx → α)
    (h : (⟨3, ![a, 1, n]⟩ : Shape).Broadcasts ⟨3, ![a, b, n]⟩) (r : Fin a) (s : Fin b) (k : Fin n) :
    broadcastTo ⟨3, ![a, b, n]⟩ y h (ix3 r s k) = y (ix3 r (0 : Fin 1) k) := by
  refine broadcastTo_apply y h (ix3 r s k) (ix3 r (0 : Fin 1) k) fun ax => ?_
  match ax with
  | ⟨0, _⟩ =>
    show r.val = if a = 1 then 0 else r.val
    split
    · have := r.isLt; omega
    · rfl
  | ⟨1, _⟩ => rfl
  | ⟨2, _⟩ =>
    show k.val = if n = 1 then 0 else k.val
    split
    · have := k.isLt; omega
    · rfl

/-- An `[a, n]` matrix given a middle unit axis and broadcast along it: `(r, s, k)` reads the matrix at `(r, k)`. -/
theorem middle_apply {a b n : ℕ} (x : (⟨2, ![a, n]⟩ : Shape).Idx → α)
    (hc : (⟨2, ![a, n]⟩ : Shape).ShapeCasts ⟨3, ![a, 1, n]⟩) (hb : (⟨3, ![a, 1, n]⟩ : Shape).Broadcasts ⟨3, ![a, b, n]⟩)
    (r : Fin a) (s : Fin b) (k : Fin n) :
    broadcastTo ⟨3, ![a, b, n]⟩ (shapeCast ⟨3, ![a, 1, n]⟩ x hc) hb (ix3 r s k) = x (ix2 r k) :=
  (broadcastTo_a1n_abn_apply _ hb r s k).trans (shapeCast_an_a1n_apply x hc r 0 k)

/-- A sum along the last axis of an `[a, b, n]` array of extended reals, from the zero accumulator, reads at `(r, s)`
    the sum over `k` of the entries `(r, s, k)`. The last hypothesis says that the accumulator's word, zero, is the
    neutral word of addition. -/
theorem sumLast_apply {a b n : ℕ} (src : FVec Ideal ⟨3, ![a, b, n]⟩ .f32)
    (h : (⟨3, ![a, b, n]⟩ : Shape).Reduces [2] ⟨2, ![a, b]⟩) (hφ : FKind.Formats .f32)
    (hacc : (0x00000000#32 : BitVec 32) = FKind.add.neutral .f32 hφ) (r : Fin a) (s : Fin b) :
    multiReduction .add [2] ⟨2, ![a, b]⟩ src 0x00000000#32 h hφ hacc (ix2 r s) = ∑ k : Fin n, src (ix3 r s k) := by
  refine (Ideal.multiReduction_add_single src 0x00000000#32 h hφ hacc (ix2 r s)).trans ?_
  show ∑ k : Fin n, src (h.lift (ix2 r s) k) = ∑ k : Fin n, src (ix3 r s k)
  refine Finset.sum_congr rfl fun k _ => congrArg src (funext fun c => Fin.ext ?_)
  match c with
  | ⟨0, _⟩ => rfl
  | ⟨1, _⟩ => rfl
  | ⟨2, _⟩ => rfl

/-- A sum along the middle axis of an `[a, b, n]` array of extended reals, from the zero accumulator, reads at `(r, k)`
    the sum over `s` of the entries `(r, s, k)`. -/
theorem sumMiddle_apply {a b n : ℕ} (src : FVec Ideal ⟨3, ![a, b, n]⟩ .f32)
    (h : (⟨3, ![a, b, n]⟩ : Shape).Reduces [1] ⟨2, ![a, n]⟩) (hφ : FKind.Formats .f32)
    (hacc : (0x00000000#32 : BitVec 32) = FKind.add.neutral .f32 hφ) (r : Fin a) (k : Fin n) :
    multiReduction .add [1] ⟨2, ![a, n]⟩ src 0x00000000#32 h hφ hacc (ix2 r k) = ∑ s : Fin b, src (ix3 r s k) := by
  refine (Ideal.multiReduction_add_single src 0x00000000#32 h hφ hacc (ix2 r k)).trans ?_
  show ∑ s : Fin b, src (h.lift (ix2 r k) s) = ∑ s : Fin b, src (ix3 r s k)
  refine Finset.sum_congr rfl fun s _ => congrArg src (funext fun c => Fin.ext ?_)
  match c with
  | ⟨0, _⟩ => rfl
  | ⟨1, _⟩ => rfl
  | ⟨2, _⟩ => rfl

/-- A maximum along the second axis of an `[a, b]` array of extended reals reads, at `r`, the fold of `max`, from the
    value the accumulator's word denotes, over `j` of the entries `(r, j)`. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun j => src (ix2 r j)) := by
  refine (Ideal.multiReduction_maximumf_single src acc h hφ hacc (ix1 r)).trans ?_
  show (Finset.univ : Finset (Fin b)).fold max (Ideal.ofBits .f32 acc) (src ∘ h.lift (ix1 r)) = _
  refine congrArg (fun f => Finset.fold max (Ideal.ofBits .f32 acc) f (Finset.univ : Finset (Fin b)))
    (funext fun j => congrArg src (funext fun c => Fin.ext ?_))
  match c with
  | ⟨0, _⟩ => rfl
  | ⟨1, _⟩ => rfl

/-- The host's one-operand reduce with a maximum body along the second axis of an `[a, b]` array of extended reals
    reads, at `r`, the fold of `max`, from the initial value's one element, over `j` of the entries `(r, j)`: the same
    fold as the vector reduction's. -/
theorem hostRowMax_apply {a b : ℕ} {u : Shape} (x : (⟨2, ![a, b]⟩ : Shape).Idx → Ideal .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce FloatOps.maximumf x init h' hu (ix1 r)
      = (Finset.univ : Finset (Fin b)).fold max (init (Shape.Idx.first hu)) (fun j => x (ix2 r j)) := by
  refine (Host.reduce_eq_fold_single FloatOps.maximumf x init h' h hu (ix1 r)).trans ?_
  show (Finset.univ : Finset (Fin b)).fold max (init (Shape.Idx.first hu)) (x ∘ h.lift (ix1 r)) = _
  refine congrArg (fun f => Finset.fold max (init (Shape.Idx.first hu)) f (Finset.univ : Finset (Fin b)))
    (funext fun j => congrArg x (funext fun c => Fin.ext ?_))
  match c with
  | ⟨0, _⟩ => rfl
  | ⟨1, _⟩ => rfl

end Cert.OuterLayout
-- ==== Proof.KernelBlock.lean ====
/-
  What the kernel's body computes on one block, read entry by entry.

  A block is sixteen rows of `p` and the same sixteen rows of `q`, with the whole weight. The body projects the rows of
  `p` by the weight (a matrix product into a zero accumulator: at entry `(r, i)` the plain sum `∑ₖ p(r,k) · w(k,i)`),
  lays the projected block along a new last axis and the block of `q` along a new middle axis, multiplies and takes
  `tanh`: entry `(r, i, j)` of the table is `tanh (u(r,i) · q(r,j))` — row `r`'s table, nothing of another row. Summing
  along the last axis and dividing by the count gives row `r`'s mean along `q`'s axis, summing along the middle axis its mean
  along `u`'s axis. Each mean then goes through the same softmax over the sixteen rows at once: a row maximum from
  `−∞`, the shifted exponentials, their row sum as a column spread back along the row, and the quotient. So each result
  entry `(r, ·)` is the row function of the specification at rows `r` of the two blocks.
-/
import proofs.«139242_j37263136260605_1_alg».proof.Proof.Gen.KernelIdeal.Skeleton
import proofs.«139242_j37263136260605_1_alg».proof.Proof.Spec
import proofs.«139242_j37263136260605_1_alg».proof.Proof.LibColumnLayout
import proofs.«139242_j37263136260605_1_alg».proof.Proof.LibRank3Layout
import proofs.«139242_j37263136260605_1_alg».proof.Proof.LibOuterLayout
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx Cert.MutualAttn

/-! ## The projection: the matrix product at an entry -/

/-- The product's operand indices at output entry `i` and contraction index `q`: the left operand is read at
    `(i₀, q)`, the right at `(q, i₁)` — the four coordinates, one lemma each. -/
theorem lhs_row (i : S16x512.Idx) (q : dot_S16x512_S512x512_S16x512_1_0_0_1_n_n.contr.Idx) : (dot_S16x512_S512x512_S16x512_1_0_0_1_n_n.lhsIdx i q 0).val = (i 0).val := by
  unfold DotDims.lhsIdx
  rw [dif_neg (show ¬(0 : Fin S16x512.rank) ∈ dot_S16x512_S512x512_S16x512_1_0_0_1_n_n.lhsBatch by decide),
    dif_pos (show (0 : Fin S16x512.rank) ∈ dot_S16x512_S512x512_S16x512_1_0_0_1_n_n.lhsNonContracting by decide)]
  rfl
theorem lhs_contr (i : S16x512.Idx) (q : dot_S16x512_S512x512_S16x512_1_0_0_1_n_n.contr.Idx) : (dot_S16x512_S512x512_S16x512_1_0_0_1_n_n.lhsIdx i q 1).val = (q ⟨0, by decide⟩).val :=
  dot_S16x512_S512x512_S16x512_1_0_0_1_n_n.lhsIdx_val_of_single rfl i q
theorem rhs_contr (i : S16x512.Idx) (q : dot_S16x512_S512x512_S16x512_1_0_0_1_n_n.contr.Idx) : (dot_S16x512_S512x512_S16x512_1_0_0_1_n_n.rhsIdx i q 0).val = (q ⟨0, by decide⟩).val :=
  dot_S16x512_S512x512_S16x512_1_0_0_1_n_n.rhsIdx_val_of_single rfl i q
theorem rhs_col (i : S16x512.Idx) (q : dot_S16x512_S512x512_S16x512_1_0_0_1_n_n.contr.Idx) : (dot_S16x512_S512x512_S16x512_1_0_0_1_n_n.rhsIdx i q 1).val = (i 1).val := by
  unfold DotDims.rhsIdx
  rw [dif_neg (show ¬(1 : Fin S512x512.rank) ∈ dot_S16x512_S512x512_S16x512_1_0_0_1_n_n.rhsBatch by decide),
    dif_pos (show (1 : Fin S512x512.rank) ∈ dot_S16x512_S512x512_S16x512_1_0_0_1_n_n.rhsNonContracting by decide)]
  rfl

/-- The product of a block of `p` with the weight, into the zero accumulator, at `(r, i)`: row `r` projected, entry `i`. -/
theorem projected_apply (x0 : Vec Ideal S16x512 .f32) (x2 : Vec Ideal S512x512 .f32) (r : Fin 16) (i : Fin 512) :
    matmul (F := Ideal) (φ₁ := .f32) (φ₂ := .f32) dot_S16x512_S512x512_S16x512_1_0_0_1_n_n none x0 x2 (constant S16x512 .f32 0x00000000#32) (ix2 r i) = proj (rowOf x0 r) (matOf x2) i := by
  show FloatOps.matmul (F := Ideal) (φ₁ := .f32) (φ₂ := .f32) dot_S16x512_S512x512_S16x512_1_0_0_1_n_n none x0 x2 (constant S16x512 .f32 0x00000000#32) (ix2 r i) = _
  rw [Ideal.matmul_constant_zero_apply, ← Equiv.sum_comp (ValueIdx.contrEquiv1 dot_S16x512_S512x512_S16x512_1_0_0_1_n_n 512 rfl rfl).symm]
  unfold proj rowOf matOf
  refine Finset.sum_congr rfl fun k _ => ?_
  have hk := ValueIdx.contrEquiv1_symm_val dot_S16x512_S512x512_S16x512_1_0_0_1_n_n 512 rfl rfl k
  have el : dot_S16x512_S512x512_S16x512_1_0_0_1_n_n.lhsIdx (ix2 r i) ((ValueIdx.contrEquiv1 dot_S16x512_S512x512_S16x512_1_0_0_1_n_n 512 rfl rfl).symm k) = ix2 r k :=
    funext fun a => Fin.ext (by
      match a with
      | ⟨0, _⟩ => exact lhs_row _ _
      | ⟨1, _⟩ => exact (lhs_contr _ _).trans hk)
  have er : dot_S16x512_S512x512_S16x512_1_0_0_1_n_n.rhsIdx (ix2 r i) ((ValueIdx.contrEquiv1 dot_S16x512_S512x512_S16x512_1_0_0_1_n_n 512 rfl rfl).symm k) = ix2 k i :=
    funext fun a => Fin.ext (by
      match a with
      | ⟨0, _⟩ => exact (rhs_contr _ _).trans hk
      | ⟨1, _⟩ => exact rhs_col _ _)
  rw [el, er]

/-! ## The table -/

/-- The table the body builds, at `(r, i, j)`: `tanh` of row `r`'s projected entry `i` times row `r`'s entry `j` of `q`. -/
theorem table_apply (x0 x1 : Vec Ideal S16x512 .f32) (x2 : Vec Ideal S512x512 .f32) (r : Fin 16) (i j : Fin 512) :
    k0_pay2 x0 x1 x2 (ix3 r i j) = table (proj (rowOf x0 r) (matOf x2)) (rowOf x1 r) i j := by
  have key : k0_pay2 x0 x1 x2 (ix3 r i j)
      = Ideal.tanh (broadcastTo S16x512x512 (shapeCast S16x512x1
            (matmul (F := Ideal) (φ₁ := .f32) (φ₂ := .f32) dot_S16x512_S512x512_S16x512_1_0_0_1_n_n none x0 x2 (constant S16x512 .f32 0x00000000#32)) shapeCasts_S16x512_S16x512x1)
            broadcasts_S16x512x1_S16x512x512 (ix3 r i j)
          * broadcastTo S16x512x512 (shapeCast S16x1x512 x1 shapeCasts_S16x512_S16x1x512)
            broadcasts_S16x1x512_S16x512x512 (ix3 r i j)) := rfl
  rw [key, Cert.Rank3Layout.column_apply, Cert.OuterLayout.middle_apply, projected_apply]
  rfl

/-! ## The two means -/

/-- The table summed along its last axis, as the body writes it. -/
def sumLastVec (x0 x1 : Vec Ideal S16x512 .f32) (x2 : Vec Ideal S512x512 .f32) : FVec Ideal S16x512 .f32 :=
  multiReduction .add [2] S16x512 (k0_pay2 x0 x1 x2) 0x00000000#32 reduces_S16x512x512_S16x512 (.inl rfl) rfl

/-- The table summed along its middle axis, as the body writes it. -/
def sumMiddleVec (x0 x1 : Vec Ideal S16x512 .f32) (x2 : Vec Ideal S512x512 .f32) : FVec Ideal S16x512 .f32 :=
  multiReduction .add [1] S16x512 (k0_pay2 x0 x1 x2) 0x00000000#32 reduces_S16x512x512_S16x512_2 (.inl rfl) rfl

/-- At `(r, i)` the first is the sum over `j` of row `r`'s table at `(i, j)`. -/
theorem sumLastVec_apply (x0 x1 : Vec Ideal S16x512 .f32) (x2 : Vec Ideal S512x512 .f32) (r : Fin 16) (i : Fin 512) :
    sumLastVec x0 x1 x2 (ix2 r i) = ∑ j : Fin 512, table (proj (rowOf x0 r) (matOf x2)) (rowOf x1 r) i j :=
  (Cert.OuterLayout.sumLast_apply (k0_pay2 x0 x1 x2) reduces_S16x512x512_S16x512 (.inl rfl) rfl r i).trans
    (Finset.sum_congr rfl fun j _ => table_apply x0 x1 x2 r i j)

/-- At `(r, j)` the second is the sum over `i` of row `r`'s table at `(i, j)`. -/
theorem sumMiddleVec_apply (x0 x1 : Vec Ideal S16x512 .f32) (x2 : Vec Ideal S512x512 .f32) (r : Fin 16) (j : Fin 512) :
    sumMiddleVec x0 x1 x2 (ix2 r j) = ∑ i : Fin 512, table (proj (rowOf x0 r) (matOf x2)) (rowOf x1 r) i j :=
  (Cert.OuterLayout.sumMiddle_apply (k0_pay2 x0 x1 x2) reduces_S16x512x512_S16x512_2 (.inl rfl) rfl r j).trans
    (Finset.sum_congr rfl fun i _ => table_apply x0 x1 x2 r i j)

/-- The first sum divided by the count, as the body writes it. -/
def meanLast (x0 x1 : Vec Ideal S16x512 .f32) (x2 : Vec Ideal S512x512 .f32) : FVec Ideal S16x512 .f32 :=
  divf (sumLastVec x0 x1 x2) (broadcast S16x512 (Scalar.ofBits .f32 0x44000000#32))

/-- The second sum divided by the count, as the body writes it. -/
def meanMiddle (x0 x1 : Vec Ideal S16x512 .f32) (x2 : Vec Ideal S512x512 .f32) : FVec Ideal S16x512 .f32 :=
  divf (sumMiddleVec x0 x1 x2) (broadcast S16x512 (Scalar.ofBits .f32 0x44000000#32))

/-- At `(r, i)` the first is row `r`'s mean along `q`'s axis at `i`. -/
theorem meanLast_apply (x0 x1 : Vec Ideal S16x512 .f32) (x2 : Vec Ideal S512x512 .f32) (r : Fin 16) (i : Fin 512) :
    meanLast x0 x1 x2 (ix2 r i) = meanAlongQ (proj (rowOf x0 r) (matOf x2)) (rowOf x1 r) i :=
  congrArg (fun z => Ideal.div z count) (sumLastVec_apply x0 x1 x2 r i)

/-- At `(r, j)` the second is row `r`'s mean along `u`'s axis at `j`. -/
theorem meanMiddle_apply (x0 x1 : Vec Ideal S16x512 .f32) (x2 : Vec Ideal S512x512 .f32) (r : Fin 16) (j : Fin 512) :
    meanMiddle x0 x1 x2 (ix2 r j) = meanAlongU (proj (rowOf x0 r) (matOf x2)) (rowOf x1 r) j :=
  congrArg (fun z => Ideal.div z count) (sumMiddleVec_apply x0 x1 x2 r j)

/-! ## The softmax over a block's rows -/

/-- A vector of one number per row, kept as a column and spread back along the rows: `(r, i)` reads entry `r`. -/
theorem spread_apply (v : FVec Ideal S16 .f32) (r : Fin 16) (i : Fin 512) :
    broadcastTo S16x512 (shapeCast S16x1 v shapeCasts_S16_S16x1) broadcasts_S16x1_S16x512 (ix2 r i) = v (ix1 r) :=
  (Cert.ColumnLayout.broadcastTo_a1_ab_apply (shapeCast S16x1 v shapeCasts_S16_S16x1) broadcasts_S16x1_S16x512 r i).trans
    (Cert.ColumnLayout.shapeCast_a_a1_apply v shapeCasts_S16_S16x1 r 0)

/-- The row maxima from `−∞`, as the body writes them. -/
def rowMaxVec (f : FVec Ideal S16x512 .f32) : FVec Ideal S16 .f32 :=
  multiReduction .maximumf [1] S16 f 0xFF800000#32 reduces_S16x512_S16 (.inl rfl) rfl

/-- The row sums from zero, as the body writes them. -/
def rowSumVec (e : FVec Ideal S16x512 .f32) : FVec Ideal S16 .f32 :=
  multiReduction .add [1] S16 e 0x00000000#32 reduces_S16x512_S16 (.inl rfl) rfl

theorem rowMaxVec_apply (f : FVec Ideal S16x512 .f32) (r : Fin 16) :
    rowMaxVec f (ix1 r) = (Finset.univ : Finset (Fin 512)).fold max negInf (fun j => f (ix2 r j)) :=
  Cert.OuterLayout.rowMax_apply f 0xFF800000#32 reduces_S16x512_S16 (.inl rfl) rfl r

theorem rowSumVec_apply (e : FVec Ideal S16x512 .f32) (r : Fin 16) : rowSumVec e (ix1 r) = ∑ k : Fin 512, e (ix2 r k) :=
  Cert.ColumnLayout.rowSum_apply e reduces_S16x512_S16 (.inl rfl) rfl r

/-- The row maxima, once more against `−∞`: one number per row. -/
def shiftVec (f : FVec Ideal S16x512 .f32) : FVec Ideal S16 .f32 :=
  maximumf (broadcast S16 (Scalar.ofBits .f32 0xFF800000#32)) (rowMaxVec f)

/-- The exponentials of the entries less their row's maximum, the maxima spread back along the rows as a column. -/
def expVec (f : FVec Ideal S16x512 .f32) : FVec Ideal S16x512 .f32 :=
  exp (subf f (broadcastTo S16x512 (shapeCast S16x1 (shiftVec f) shapeCasts_S16_S16x1) broadcasts_S16x1_S16x512))

/-- The exponentials over their row sums, the sums spread back along the rows as a column. -/
def softmaxBlock (f : FVec Ideal S16x512 .f32) : FVec Ideal S16x512 .f32 :=
  divf (expVec f) (broadcastTo S16x512 (shapeCast S16x1 (rowSumVec (expVec f)) shapeCasts_S16_S16x1) broadcasts_S16x1_S16x512)

section
variable (f : FVec Ideal S16x512 .f32) (g : Fin 16 → Fin 512 → EReal) (hf : ∀ r i, f (ix2 r i) = g r i)
include hf

/-- Row `r`'s maximum is the specification's shift of row `r`. -/
theorem shiftVec_apply (r : Fin 16) : shiftVec f (ix1 r) = shift (g r) :=
  (congrArg (fun z => max negInf z) (rowMaxVec_apply f r)).trans
    (congrArg (fun h => max negInf (Finset.fold max negInf h (Finset.univ : Finset (Fin 512)))) (funext fun j => hf r j))

/-- Entry `(r, i)` of the exponentials is the specification's shifted exponential of row `r` at `i`. -/
theorem expVec_apply (r : Fin 16) (i : Fin 512) : expVec f (ix2 r i) = expShifted (g r) i :=
  congrArg₂ (fun a b => Ideal.exp (a - b)) (hf r i) ((spread_apply (shiftVec f) r i).trans (shiftVec_apply f g hf r))

/-- Entry `(r, i)` of the block softmax is the specification's softmax of row `r` at `i`. -/
theorem softmaxBlock_apply (r : Fin 16) (i : Fin 512) : softmaxBlock f (ix2 r i) = softmax (g r) i :=
  congrArg₂ Ideal.div (expVec_apply f g hf r i)
    ((spread_apply (rowSumVec (expVec f)) r i).trans
      ((rowSumVec_apply (expVec f) r).trans (Finset.sum_congr rfl fun k _ => expVec_apply f g hf r k)))

end

/-! ## The two stored blocks -/

/-- The block stored to the first result: entry `(r, i)` is the first row function at rows `r` of the blocks. -/
theorem storedP_apply (x0 x1 : Vec Ideal S16x512 .f32) (x2 : Vec Ideal S512x512 .f32) (r : Fin 16) (i : Fin 512) :
    k0_pay4 x0 x1 x2 (ix2 r i) = weightedP (rowOf x0 r) (rowOf x1 r) (matOf x2) i :=
  congrArg (fun z => x0 (ix2 r i) * z)
    (softmaxBlock_apply (meanLast x0 x1 x2) (fun r => meanAlongQ (proj (rowOf x0 r) (matOf x2)) (rowOf x1 r))
      (meanLast_apply x0 x1 x2) r i)

/-- The block stored to the second result: entry `(r, j)` is the second row function at rows `r` of the blocks. -/
theorem storedQ_apply (x0 x1 : Vec Ideal S16x512 .f32) (x2 : Vec Ideal S512x512 .f32) (r : Fin 16) (j : Fin 512) :
    k0_pay1 x1 (k0_pay3 x0 x1 x2) (ix2 r j) = weightedQ (rowOf x0 r) (rowOf x1 r) (matOf x2) j :=
  congrArg (fun z => x1 (ix2 r j) * z)
    (softmaxBlock_apply (meanMiddle x0 x1 x2) (fun r => meanAlongU (proj (rowOf x0 r) (matOf x2)) (rowOf x1 r))
      (meanMiddle_apply x0 x1 x2) r j)

end Cert.KernelIdeal.Block

end
-- ==== Proof.KernelValue.lean ====
/-
  From blocks to arrays: what the two result arrays hold after the kernel's run.

  The grid has sixty-four points. Point `t` loads rows `16t … 16t + 15` of `p` and of `q` and the whole weight, and
  writes back rows `16t … 16t + 15` of each result. Since the body treats every row by itself (the row functions of the
  specification), what point `t` writes back is block `t` of ONE function of the whole argument arrays; the blocks
  tile the result arrays (row `b` lies in block `b / 16`), so each result array ends holding that function.
-/
import proofs.«139242_j37263136260605_1_alg».proof.Proof.Gen.KernelIdeal.Value
import proofs.«139242_j37263136260605_1_alg».proof.Proof.KernelBlock
import proofs.«139242_j37263136260605_1_alg».proof.Proof.Spec
import Idealize.ShloMosaic.Lib.Pipeline.Value
import Idealize.ShloMosaic.Lib.ValueIdx

noncomputable section

namespace Cert.KernelIdeal.ArrayValue

open Cert.KernelIdeal Cert.KernelIdeal.Gen Idealize.ShloMosaic Idealize.ShloMosaic.TcCoe Idealize.SL.Sem
  Idealize.ShloMosaic.ValueIdx Cert.MutualAttn
open Idealize.ShloMosaic.Pipeline (Dat)

variable (m : (ℓ : Loc nD τ sig) → Buf (Elt Ideal) ℓ) (ρ : Dev nD → PrngReg)

/-- The three argument arrays as the run finds them. -/
abbrev argP (c : Dev nD) : S1024x512.Idx → EReal := m ((c : Thread nD τ).loc main_arg0)
abbrev argQ (c : Dev nD) : S1024x512.Idx → EReal := m ((c : Thread nD τ).loc main_arg1)
abbrev argW (c : Dev nD) : S512x512.Idx → EReal := m ((c : Thread nD τ).loc main_arg2)

theorem hz : (![0, 0] : Fin 2 → Nat) = fun _ => 0 := funext fun a => by fin_cases a <;> rfl

/-- The printed index maps, decided over the grid: at point `t` the blocks of `p`, of `q` and of the two results are
    block `(t, 0)` of their arrays, and the weight's is block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## Window 3: the P result -/

/-- One point's stored block against the array function, over variables: if the two loaded blocks are rows of `P` and
    `Q` shifted by a common row offset (entry `y'` of a block is entry `k'` of its array whenever `k'` is `y'` moved to
    the block's rows), and the loaded weight is the whole weight, then entry `y` of the stored block is the array
    function at the index `k` that is `y` moved likewise. -/
theorem pointP (x0 x1 : Vec Ideal S16x512 .f32) (x2 : Vec Ideal S512x512 .f32)
    (P Q : S1024x512.Idx → EReal) (W : S512x512.Idx → EReal) (y : S16x512.Idx) (k : S1024x512.Idx)
    (h0 : ∀ (y' : S16x512.Idx) (k' : S1024x512.Idx), (y' 0).val = (y 0).val → (k' 0).val = (k 0).val →
      (k' 1).val = (y' 1).val → x0 y' = P k')
    (h1 : ∀ (y' : S16x512.Idx) (k' : S1024x512.Idx), (y' 0).val = (y 0).val → (k' 0).val = (k 0).val →
      (k' 1).val = (y' 1).val → x1 y' = Q k')
    (h2 : x2 = W) (hk : (k 1).val = (y 1).val) :
    k0_pay4 x0 x1 x2 y = resultP P Q W k := by
  obtain ⟨r, i, rfl⟩ : ∃ (r : Fin 16) (i : Fin 512), y = ix2 r i := ⟨y 0, y 1, eq_ix2 y⟩
  obtain ⟨b, i', rfl⟩ : ∃ (b : Fin 1024) (i' : Fin 512), k = ix2 b i' := ⟨k 0, k 1, eq_ix2 k⟩
  obtain rfl : i' = i := Fin.ext hk
  subst h2
  have e0 : rowOf x0 r = rowOf P b := funext fun j => h0 (ix2 r j) (ix2 b j) rfl rfl rfl
  have e1 : rowOf x1 r = rowOf Q b := funext fun j => h1 (ix2 r j) (ix2 b j) rfl rfl rfl
  refine (Cert.KernelIdeal.Block.storedP_apply x0 x1 x2 r i').trans ?_
  rw [e0, e1]
  rfl

/-- WHAT POINT `t` WRITES BACK to the P result is block `t` of the array function of the argument arrays. -/
theorem flushedP_eq (c : Dev nD) (t : Fin cfg0.N) :
    (dats m 0 c).flushed 3 t
      = ((cfg0.win 3).blk t).view.read (Elt Ideal) (resultP (argP m c) (argQ m c) (argW m c)) := by
  rw [Value.flushed3]
  unfold out0_3
  rw [View.canon_unit_zero hz]
  simp only [View.ld_unit_zero (S := S16x512) hz, View.ld_unit_zero (S := S512x512) hz]
  obtain ⟨e00, e01, e10, e11, e20, e21, e30, e31, e40, e41⟩ := idx_facts t
  funext y
  show k0_pay4 (iblk m c 0 t) (iblk m c 1 t) (iblk m c 2 t) y
    = resultP (argP m c) (argQ m c) (argW m c) (((cfg0.win 3).blk t).view.emb y)
  have hk0 : ((((cfg0.win 3).blk t).view.emb y) 0).val = win0_3.index t (0 : Fin 2) * 16 + 1 * (y 0).val := rfl
  have hk1 : ((((cfg0.win 3).blk t).view.emb y) 1).val = win0_3.index t (1 : Fin 2) * 512 + 1 * (y 1).val := rfl
  refine pointP (iblk m c 0 t) (iblk m c 1 t) (iblk m c 2 t) (argP m c) (argQ m c) (argW m c) y
    (((cfg0.win 3).blk t).view.emb y) ?_ ?_ ?_ ?_
  · intro y' k' hy hb hc
    show V m c main_arg0 (((cfg0.win 0).blk t).view.emb y') = V m c main_arg0 k'
    refine congrArg (V m c main_arg0) (funext fun a => Fin.ext ?_)
    match a with
    | ⟨0, _⟩ => show win0_0.index t (0 : Fin 2) * 16 + 1 * (y' 0).val = (k' 0).val; omega
    | ⟨1, _⟩ => show win0_0.index t (1 : Fin 2) * 512 + 1 * (y' 1).val = (k' 1).val; omega
  · intro y' k' hy hb hc
    show V m c main_arg1 (((cfg0.win 1).blk t).view.emb y') = V m c main_arg1 k'
    refine congrArg (V m c main_arg1) (funext fun a => Fin.ext ?_)
    match a with
    | ⟨0, _⟩ => show win0_1.index t (0 : Fin 2) * 16 + 1 * (y' 0).val = (k' 0).val; omega
    | ⟨1, _⟩ => show win0_1.index t (1 : Fin 2) * 512 + 1 * (y' 1).val = (k' 1).val; omega
  · funext z
    show V m c main_arg2 (((cfg0.win 2).blk t).view.emb z) = V m c main_arg2 z
    refine congrArg (V m c main_arg2) (funext fun a => Fin.ext ?_)
    match a with
    | ⟨0, _⟩ => show win0_2.index t (0 : Fin 2) * 512 + 1 * (z 0).val = (z 0).val; omega
    | ⟨1, _⟩ => show win0_2.index t (1 : Fin 2) * 512 + 1 * (z 1).val = (z 1).val; omega
  · omega

/-- An index of the array is in point `t`'s block iff each coordinate is in the block's range on its axis. -/
theorem mem_blkP (t : Fin cfg0.N) (i : S1024x512.Idx) :
    i ∈ ((cfg0.win 3).blk t).view.set ↔ ∀ a : Fin 2, win0_3.index t a * S16x512.size a ≤ (i a).val
      ∧ (i a).val < win0_3.index t a * S16x512.size a + S16x512.size a := by
  show i ∈ ((View.whole main_v0_0).slice (win0_3.rect t)).set ↔ _
  rw [View.set_slice_whole, Rect.mem_set_unit]
  exact Iff.rfl

/-- The sixty-four blocks of sixteen rows tile the array: row `b` is in the block of point `b / 16`. -/
theorem coverP (i : S1024x512.Idx) :
    ∃ t : Fin cfg0.N, (cfg0.win 3).flush t = true ∧ i ∈ ((cfg0.win 3).blk t).view.set := by
  have hi0 : (i 0).val < 1024 := (i 0).isLt
  have hi1 : (i 1).val < 512 := (i 1).isLt
  have hN : grid0.N = 64 := N_0
  have ht : (i 0).val / 16 < cfg0.N := by show (i 0).val / 16 < grid0.N; omega
  obtain ⟨e00, e01, e10, e11, e20, e21, e30, e31, e40, e41⟩ := idx_facts ⟨(i 0).val / 16, ht⟩
  refine ⟨⟨(i 0).val / 16, ht⟩, flush0_3 _, ?_⟩
  rw [mem_blkP]
  intro a
  match a with
  | ⟨0, _⟩ =>
    show win0_3.index ⟨(i 0).val / 16, ht⟩ (0 : Fin 2) * 16 ≤ (i 0).val
      ∧ (i 0).val < win0_3.index ⟨(i 0).val / 16, ht⟩ (0 : Fin 2) * 16 + 16
    rw [e30]
    show (i 0).val / 16 * 16 ≤ (i 0).val ∧ (i 0).val < (i 0).val / 16 * 16 + 16
    omega
  | ⟨1, _⟩ =>
    show win0_3.index ⟨(i 0).val / 16, ht⟩ (1 : Fin 2) * 512 ≤ (i 1).val
      ∧ (i 1).val < win0_3.index ⟨(i 0).val / 16, ht⟩ (1 : Fin 2) * 512 + 512
    rw [e31]
    omega

/-- THE ARRAY after the run is the array function of the argument arrays. -/
theorem finalP (c : Dev nD) :
    (dats m 0 c).arrAt 3 cfg0.N = resultP (argP m c) (argQ m c) (argW m c) :=
  (dats m 0 c).arrAt_eq_of_cover 3 (resultP (argP m c) (argQ m c) (argW m c)) (fun t _ => flushedP_eq m c t)
    coverP

/-! ## Window 4: the Q result -/

/-- One point's stored block against the array function, over variables: if the two loaded blocks are rows of `P` and
    `Q` shifted by a common row offset (entry `y'` of a block is entry `k'` of its array whenever `k'` is `y'` moved to
    the block's rows), and the loaded weight is the whole weight, then entry `y` of the stored block is the array
    function at the index `k` that is `y` moved likewise. -/
theorem pointQ (x0 x1 : Vec Ideal S16x512 .f32) (x2 : Vec Ideal S512x512 .f32)
    (P Q : S1024x512.Idx → EReal) (W : S512x512.Idx → EReal) (y : S16x512.Idx) (k : S1024x512.Idx)
    (h0 : ∀ (y' : S16x512.Idx) (k' : S1024x512.Idx), (y' 0).val = (y 0).val → (k' 0).val = (k 0).val →
      (k' 1).val = (y' 1).val → x0 y' = P k')
    (h1 : ∀ (y' : S16x512.Idx) (k' : S1024x512.Idx), (y' 0).val = (y 0).val → (k' 0).val = (k 0).val →
      (k' 1).val = (y' 1).val → x1 y' = Q k')
    (h2 : x2 = W) (hk : (k 1).val = (y 1).val) :
    k0_pay1 x1 (k0_pay3 x0 x1 x2) y = resultQ P Q W k := by
  obtain ⟨r, i, rfl⟩ : ∃ (r : Fin 16) (i : Fin 512), y = ix2 r i := ⟨y 0, y 1, eq_ix2 y⟩
  obtain ⟨b, i', rfl⟩ : ∃ (b : Fin 1024) (i' : Fin 512), k = ix2 b i' := ⟨k 0, k 1, eq_ix2 k⟩
  obtain rfl : i' = i := Fin.ext hk
  subst h2
  have e0 : rowOf x0 r = rowOf P b := funext fun j => h0 (ix2 r j) (ix2 b j) rfl rfl rfl
  have e1 : rowOf x1 r = rowOf Q b := funext fun j => h1 (ix2 r j) (ix2 b j) rfl rfl rfl
  refine (Cert.KernelIdeal.Block.storedQ_apply x0 x1 x2 r i').trans ?_
  rw [e0, e1]
  rfl

/-- WHAT POINT `t` WRITES BACK to the Q result is block `t` of the array function of the argument arrays. -/
theorem flushedQ_eq (c : Dev nD) (t : Fin cfg0.N) :
    (dats m 0 c).flushed 4 t
      = ((cfg0.win 4).blk t).view.read (Elt Ideal) (resultQ (argP m c) (argQ m c) (argW m c)) := by
  rw [Value.flushed4]
  unfold out0_4
  rw [View.canon_unit_zero hz]
  simp only [View.ld_unit_zero (S := S16x512) hz, View.ld_unit_zero (S := S512x512) hz]
  obtain ⟨e00, e01, e10, e11, e20, e21, e30, e31, e40, e41⟩ := idx_facts t
  funext y
  show k0_pay1 (iblk m c 1 t) (k0_pay3 (iblk m c 0 t) (iblk m c 1 t) (iblk m c 2 t)) y
    = resultQ (argP m c) (argQ m c) (argW m c) (((cfg0.win 4).blk t).view.emb y)
  have hk0 : ((((cfg0.win 4).blk t).view.emb y) 0).val = win0_4.index t (0 : Fin 2) * 16 + 1 * (y 0).val := rfl
  have hk1 : ((((cfg0.win 4).blk t).view.emb y) 1).val = win0_4.index t (1 : Fin 2) * 512 + 1 * (y 1).val := rfl
  refine pointQ (iblk m c 0 t) (iblk m c 1 t) (iblk m c 2 t) (argP m c) (argQ m c) (argW m c) y
    (((cfg0.win 4).blk t).view.emb y) ?_ ?_ ?_ ?_
  · intro y' k' hy hb hc
    show V m c main_arg0 (((cfg0.win 0).blk t).view.emb y') = V m c main_arg0 k'
    refine congrArg (V m c main_arg0) (funext fun a => Fin.ext ?_)
    match a with
    | ⟨0, _⟩ => show win0_0.index t (0 : Fin 2) * 16 + 1 * (y' 0).val = (k' 0).val; omega
    | ⟨1, _⟩ => show win0_0.index t (1 : Fin 2) * 512 + 1 * (y' 1).val = (k' 1).val; omega
  · intro y' k' hy hb hc
    show V m c main_arg1 (((cfg0.win 1).blk t).view.emb y') = V m c main_arg1 k'
    refine congrArg (V m c main_arg1) (funext fun a => Fin.ext ?_)
    match a with
    | ⟨0, _⟩ => show win0_1.index t (0 : Fin 2) * 16 + 1 * (y' 0).val = (k' 0).val; omega
    | ⟨1, _⟩ => show win0_1.index t (1 : Fin 2) * 512 + 1 * (y' 1).val = (k' 1).val; omega
  · funext z
    show V m c main_arg2 (((cfg0.win 2).blk t).view.emb z) = V m c main_arg2 z
    refine congrArg (V m c main_arg2) (funext fun a => Fin.ext ?_)
    match a with
    | ⟨0, _⟩ => show win0_2.index t (0 : Fin 2) * 512 + 1 * (z 0).val = (z 0).val; omega
    | ⟨1, _⟩ => show win0_2.index t (1 : Fin 2) * 512 + 1 * (z 1).val = (z 1).val; omega
  · omega

/-- An index of the array is in point `t`'s block iff each coordinate is in the block's range on its axis. -/
theorem mem_blkQ (t : Fin cfg0.N) (i : S1024x512.Idx) :
    i ∈ ((cfg0.win 4).blk t).view.set ↔ ∀ a : Fin 2, win0_4.index t a * S16x512.size a ≤ (i a).val
      ∧ (i a).val < win0_4.index t a * S16x512.size a + S16x512.size a := by
  show i ∈ ((View.whole main_v0_1).slice (win0_4.rect t)).set ↔ _
  rw [View.set_slice_whole, Rect.mem_set_unit]
  exact Iff.rfl

/-- The sixty-four blocks of sixteen rows tile the array: row `b` is in the block of point `b / 16`. -/
theorem coverQ (i : S1024x512.Idx) :
    ∃ t : Fin cfg0.N, (cfg0.win 4).flush t = true ∧ i ∈ ((cfg0.win 4).blk t).view.set := by
  have hi0 : (i 0).val < 1024 := (i 0).isLt
  have hi1 : (i 1).val < 512 := (i 1).isLt
  have hN : grid0.N = 64 := N_0
  have ht : (i 0).val / 16 < cfg0.N := by show (i 0).val / 16 < grid0.N; omega
  obtain ⟨e00, e01, e10, e11, e20, e21, e30, e31, e40, e41⟩ := idx_facts ⟨(i 0).val / 16, ht⟩
  refine ⟨⟨(i 0).val / 16, ht⟩, flush0_4 _, ?_⟩
  rw [mem_blkQ]
  intro a
  match a with
  | ⟨0, _⟩ =>
    show win0_4.index ⟨(i 0).val / 16, ht⟩ (0 : Fin 2) * 16 ≤ (i 0).val
      ∧ (i 0).val < win0_4.index ⟨(i 0).val / 16, ht⟩ (0 : Fin 2) * 16 + 16
    rw [e40]
    show (i 0).val / 16 * 16 ≤ (i 0).val ∧ (i 0).val < (i 0).val / 16 * 16 + 16
    omega
  | ⟨1, _⟩ =>
    show win0_4.index ⟨(i 0).val / 16, ht⟩ (1 : Fin 2) * 512 ≤ (i 1).val
      ∧ (i 1).val < win0_4.index ⟨(i 0).val / 16, ht⟩ (1 : Fin 2) * 512 + 512
    rw [e41]
    omega

/-- THE ARRAY after the run is the array function of the argument arrays. -/
theorem finalQ (c : Dev nD) :
    (dats m 0 c).arrAt 4 cfg0.N = resultQ (argP m c) (argQ m c) (argW m c) :=
  (dats m 0 c).arrAt_eq_of_cover 4 (resultQ (argP m c) (argQ m c) (argW m c)) (fun t _ => flushedQ_eq m c t)
    coverQ

/-! ## The run, read -/

/-- The kernel's run with each result array at its function of the argument arrays, the arguments unchanged. -/
theorem run : θ_run defs (onTc (τ := τ) (main (F := Ideal))) ⟨m, fun _ => 0, ρ⟩ fun r => ∀ c : Dev nD,
      r.2.mem ((c : Thread nD τ).loc main_v0_0) = resultP (argP m c) (argQ m c) (argW m c)
      ∧ r.2.mem ((c : Thread nD τ).loc main_v0_1) = resultQ (argP m c) (argQ m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (finalP m c), (h c).2.1.trans (finalQ m c), (h c).2.2⟩)
    (Value.run_blocks m ρ)

end Cert.KernelIdeal.ArrayValue

end
-- ==== Proof.RefValue.lean ====
/-
  What the reference computes, stage by stage, read entry by entry.

  The reference works on whole arrays: it projects `p` by the weight with one matrix product, lays the projection
  along a new last axis and `q` along a new middle axis, multiplies and takes `tanh` — at `(b, i, j)` the entry
  `tanh (u(b,i) · q(b,j))` of row `b`'s table —, sums along the last axis or the middle one from a zero initial value and
  divides by the count, and puts each mean through jnp's softmax: a row maximum from `−∞` (a fold of `max` over the
  row, in whatever order), `max` with `−∞` once more, the shifted exponentials, their row sum from zero, the quotient.
  Read at row `b`, each stage is the specification's row function at rows `b` of `p` and `q`; the zero initial values
  drop out of the sums.
-/
import proofs.«139242_j37263136260605_1_alg».proof.Proof.Gen.ReferenceIdeal.Read
import proofs.«139242_j37263136260605_1_alg».proof.Proof.Spec
import proofs.«139242_j37263136260605_1_alg».proof.Proof.LibOuterLayout
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
  Cert.MutualAttn

/-! ## The projection and the table -/

/-- The reference's matrix product at `(b, i)`: row `b` of `p` projected, entry `i`. -/
theorem projected (P : S1024x512.Idx → EReal) (W : S512x512.Idx → EReal) (b : Fin 1024) (i : Fin 512) :
    val_main_v0 (F := Ideal) P W (ix2 b i) = proj (rowOf P b) (matOf W) i := by
  rw [val_main_v0_apply]
  unfold proj rowOf matOf
  refine Finset.sum_congr rfl fun k _ => ?_
  have el : lidx_main_v0 (ix2 b i) k = ix2 b k :=
    funext fun a => Fin.ext (by match a with | ⟨0, _⟩ => rfl | ⟨1, _⟩ => rfl)
  have er : ridx_main_v0 (ix2 b i) k = ix2 k i :=
    funext fun a => Fin.ext (by match a with | ⟨0, _⟩ => rfl | ⟨1, _⟩ => rfl)
  rw [el, er]

/-- The reference's table at `(b, i, j)`: row `b`'s table at `(i, j)`. -/
theorem tableStage (P Q : S1024x512.Idx → EReal) (W : S512x512.Idx → EReal) (b : Fin 1024) (i j : Fin 512) :
    val_main_v6 (F := Ideal) P Q W (ix3 b i j) = table (proj (rowOf P b) (matOf W)) (rowOf Q b) i j := by
  have eu : idx_main_v1 (idx_main_v3 (ix3 b i j)) = ix2 b i :=
    funext fun a => Fin.ext (by match a with | ⟨0, _⟩ => rfl | ⟨1, _⟩ => rfl)
  have eq : idx_main_v2 (idx_main_v4 (ix3 b i j)) = ix2 b j :=
    funext fun a => Fin.ext (by match a with | ⟨0, _⟩ => rfl | ⟨1, _⟩ => rfl)
  rw [val_main_v6_apply, val_main_v5_apply, val_main_v3_apply, val_main_v1_apply, val_main_v4_apply, val_main_v2_apply,
    eu, eq, projected]
  rfl

/-! ## The mean along `q`'s axis and its softmax -/

/-- The reference's first mean at `(b, i)`: row `b`'s mean along `q`'s axis at `i`. -/
theorem first_mean (P Q : S1024x512.Idx → EReal) (W : S512x512.Idx → EReal) (b : Fin 1024) (i : Fin 512) :
    val_main_v9 (F := Ideal) P Q W (ix2 b i) = meanAlongQ (proj (rowOf P b) (matOf W)) (rowOf Q b) i := by
  rw [val_main_v9_apply, val_main_v7_apply, val_main_v8_apply, val_main_cst_0_apply, val_main_cst_apply]
  unfold meanAlongQ
  show Ideal.div (Ideal.ofBits .f32 0x00000000#32 + _) count = _
  rw [Ideal.ofBits_zero_f32, zero_add]
  refine congrArg (fun z => Ideal.div z count) (Finset.sum_congr rfl fun k _ => ?_)
  have e : idx_main_v7 (ix2 b i) k = ix3 b i k :=
    funext fun a => Fin.ext (by match a with | ⟨0, _⟩ => rfl | ⟨1, _⟩ => rfl | ⟨2, _⟩ => rfl)
  rw [e, tableStage]

/-- The row maximum the reference shifts by is the specification's shift of row `b`. -/
theorem first_shift (P Q : S1024x512.Idx → EReal) (W : S512x512.Idx → EReal) (b : Fin 1024) :
    val_main_v12 (F := Ideal) P Q W (ix1 b) = shift (meanAlongQ (proj (rowOf P b) (matOf W)) (rowOf Q b)) := by
  have hmax : val_main_v10 (F := Ideal) P Q W (ix1 b)
      = (Finset.univ : Finset (Fin 512)).fold max negInf (fun j => val_main_v9 (F := Ideal) P Q W (ix2 b j)) :=
    Cert.OuterLayout.hostRowMax_apply (val_main_v9 (F := Ideal) P Q W) (val_main_cst_1 (F := Ideal))
      reducesTo_S1024x512_S1024_d1 (by decide) h_S_ b
  rw [val_main_v12_apply, val_main_v11_apply, val_main_cst_2_apply]
  unfold shift
  refine (congrArg (fun z => max negInf z) hmax).trans ?_
  exact congrArg (fun h => max negInf (Finset.fold max negInf h (Finset.univ : Finset (Fin 512))))
    (funext fun j => first_mean P Q W b j)

/-- The reference's shifted exponentials are the specification's. -/
theorem first_exp (P Q : S1024x512.Idx → EReal) (W : S512x512.Idx → EReal) (b : Fin 1024) (i : Fin 512) :
    val_main_v16 (F := Ideal) P Q W (ix2 b i) = expShifted (meanAlongQ (proj (rowOf P b) (matOf W)) (rowOf Q b)) i := by
  have e : idx_main_v13 (idx_main_v14 (ix2 b i)) = ix1 b :=
    funext fun a => Fin.ext (by match a with | ⟨0, _⟩ => rfl)
  rw [val_main_v16_apply, val_main_v15_apply, val_main_v14_apply, val_main_v13_apply, e, first_shift, first_mean]
  rfl

/-- The reference's softmax denominator at row `b`: the sum of the shifted exponentials (from the zero initial value). -/
theorem first_sum (P Q : S1024x512.Idx → EReal) (W : S512x512.Idx → EReal) (b : Fin 1024) :
    val_main_v17 (F := Ideal) P Q W (ix1 b) = ∑ k : Fin 512, expShifted (meanAlongQ (proj (rowOf P b) (matOf W)) (rowOf Q b)) k := by
  rw [val_main_v17_apply, val_main_cst_3_apply]
  show Ideal.ofBits .f32 0x00000000#32 + _ = _
  rw [Ideal.ofBits_zero_f32, zero_add]
  refine Finset.sum_congr rfl fun k _ => ?_
  have e : idx_main_v17 (ix1 b) k = ix2 b k :=
    funext fun a => Fin.ext (by match a with | ⟨0, _⟩ => rfl | ⟨1, _⟩ => rfl)
  rw [e, first_exp]

/-- The reference's softmax at `(b, i)` is the specification's softmax of row `b`'s mean at `i`. -/
theorem first_softmax (P Q : S1024x512.Idx → EReal) (W : S512x512.Idx → EReal) (b : Fin 1024) (i : Fin 512) :
    val_main_v20 (F := Ideal) P Q W (ix2 b i) = softmax (meanAlongQ (proj (rowOf P b) (matOf W)) (rowOf Q b)) i := by
  have e : idx_main_v18 (idx_main_v19 (ix2 b i)) = ix1 b :=
    funext fun a => Fin.ext (by match a with | ⟨0, _⟩ => rfl)
  rw [val_main_v20_apply, val_main_v19_apply, val_main_v18_apply, e, first_sum, first_exp]
  rfl

/-! ## The mean along `u`'s axis and its softmax -/

/-- The reference's second mean at `(b, j)`: row `b`'s mean along `u`'s axis at `j`. -/
theorem second_mean (P Q : S1024x512.Idx → EReal) (W : S512x512.Idx → EReal) (b : Fin 1024) (j : Fin 512) :
    val_main_v23 (F := Ideal) P Q W (ix2 b j) = meanAlongU (proj (rowOf P b) (matOf W)) (rowOf Q b) j := by
  rw [val_main_v23_apply, val_main_v21_apply, val_main_v22_apply, val_main_cst_5_apply, val_main_cst_4_apply]
  unfold meanAlongU
  show Ideal.div (Ideal.ofBits .f32 0x00000000#32 + _) count = _
  rw [Ideal.ofBits_zero_f32, zero_add]
  refine congrArg (fun z => Ideal.div z count) (Finset.sum_congr rfl fun k _ => ?_)
  have e : idx_main_v21 (ix2 b j) k = ix3 b k j :=
    funext fun a => Fin.ext (by match a with | ⟨0, _⟩ => rfl | ⟨1, _⟩ => rfl | ⟨2, _⟩ => rfl)
  rw [e, tableStage]

/-- The row maximum the reference shifts by is the specification's shift of row `b`. -/
theorem second_shift (P Q : S1024x512.Idx → EReal) (W : S512x512.Idx → EReal) (b : Fin 1024) :
    val_main_v26 (F := Ideal) P Q W (ix1 b) = shift (meanAlongU (proj (rowOf P b) (matOf W)) (rowOf Q b)) := by
  have hmax : val_main_v24 (F := Ideal) P Q W (ix1 b)
      = (Finset.univ : Finset (Fin 512)).fold max negInf (fun j => val_main_v23 (F := Ideal) P Q W (ix2 b j)) :=
    Cert.OuterLayout.hostRowMax_apply (val_main_v23 (F := Ideal) P Q W) (val_main_cst_6 (F := Ideal))
      reducesTo_S1024x512_S1024_d1 (by decide) h_S_ b
  rw [val_main_v26_apply, val_main_v25_apply, val_main_cst_7_apply]
  unfold shift
  refine (congrArg (fun z => max negInf z) hmax).trans ?_
  exact congrArg (fun h => max negInf (Finset.fold max negInf h (Finset.univ : Finset (Fin 512))))
    (funext fun j => second_mean P Q W b j)

/-- The reference's shifted exponentials are the specification's. -/
theorem second_exp (P Q : S1024x512.Idx → EReal) (W : S512x512.Idx → EReal) (b : Fin 1024) (i : Fin 512) :
    val_main_v30 (F := Ideal) P Q W (ix2 b i) = expShifted (meanAlongU (proj (rowOf P b) (matOf W)) (rowOf Q b)) i := by
  have e : idx_main_v27 (idx_main_v28 (ix2 b i)) = ix1 b :=
    funext fun a => Fin.ext (by match a with | ⟨0, _⟩ => rfl)
  rw [val_main_v30_apply, val_main_v29_apply, val_main_v28_apply, val_main_v27_apply, e, second_shift, second_mean]
  rfl

/-- The reference's softmax denominator at row `b`: the sum of the shifted exponentials (from the zero initial value). -/
theorem second_sum (P Q : S1024x512.Idx → EReal) (W : S512x512.Idx → EReal) (b : Fin 1024) :
    val_main_v31 (F := Ideal) P Q W (ix1 b) = ∑ k : Fin 512, expShifted (meanAlongU (proj (rowOf P b) (matOf W)) (rowOf Q b)) k := by
  rw [val_main_v31_apply, val_main_cst_8_apply]
  show Ideal.ofBits .f32 0x00000000#32 + _ = _
  rw [Ideal.ofBits_zero_f32, zero_add]
  refine Finset.sum_congr rfl fun k _ => ?_
  have e : idx_main_v31 (ix1 b) k = ix2 b k :=
    funext fun a => Fin.ext (by match a with | ⟨0, _⟩ => rfl | ⟨1, _⟩ => rfl)
  rw [e, second_exp]

/-- The reference's softmax at `(b, i)` is the specification's softmax of row `b`'s mean at `i`. -/
theorem second_softmax (P Q : S1024x512.Idx → EReal) (W : S512x512.Idx → EReal) (b : Fin 1024) (i : Fin 512) :
    val_main_v34 (F := Ideal) P Q W (ix2 b i) = softmax (meanAlongU (proj (rowOf P b) (matOf W)) (rowOf Q b)) i := by
  have e : idx_main_v32 (idx_main_v33 (ix2 b i)) = ix1 b :=
    funext fun a => Fin.ext (by match a with | ⟨0, _⟩ => rfl)
  rw [val_main_v34_apply, val_main_v33_apply, val_main_v32_apply, e, second_sum, second_exp]
  rfl

/-! ## The two results -/

/-- The reference's first result is the specification's first result array. -/
theorem resultP_eq (P Q : S1024x512.Idx → EReal) (W : S512x512.Idx → EReal) : val_main_v35 (F := Ideal) P Q W = resultP P Q W := by
  funext idx
  obtain ⟨b, i, rfl⟩ : ∃ (b : Fin 1024) (i : Fin 512), idx = ix2 b i := ⟨idx 0, idx 1, eq_ix2 idx⟩
  rw [val_main_v35_apply, first_softmax]
  rfl

/-- The reference's second result is the specification's second result array. -/
theorem resultQ_eq (P Q : S1024x512.Idx → EReal) (W : S512x512.Idx → EReal) : val_main_v36 (F := Ideal) P Q W = resultQ P Q W := by
  funext idx
  obtain ⟨b, j, rfl⟩ : ∃ (b : Fin 1024) (j : Fin 512), idx = ix2 b j := ⟨idx 0, idx 1, eq_ix2 idx⟩
  rw [val_main_v36_apply, second_softmax]
  rfl

end Cert.ReferenceIdeal.RefValue

end
-- ==== Proof.lean ====
/-
  Mutual attention: a kernel that tiles the batch against the plain array program.

  For `p, q : [1024, 512]` and a weight `w : [512, 512]`, every row `b` is treated by itself: the row of `p` is projected
  by `w`, the outer product of the projection with the row of `q` goes through `tanh`, the table is averaged along each of
  its two axes, each average goes through a softmax, and the two rows are weighted by the two softmaxes. The kernel does
  this sixteen rows at a time over a grid of sixty-four points, building each block's `[16, 512, 512]` table in place; the
  reference builds the whole `[1024, 512, 512]` table at once. Over the extended reals the two compute, entry by entry, the
  same terms: a matrix product into a zero accumulator is the plain sum of products, a sum along an axis is the same
  finite sum from a zero initial value, a row maximum is the same fold of `max` from `−∞` in whatever order, and
  `tanh`, `exp` and the quotient are one function on both sides. So no property of the inputs is used: the equality
  holds at every extended-real input, and the precondition is never opened.

  The parts: `Spec` states the row functions and the two result arrays; `KernelBlock` reads the kernel's stored blocks
  entry by entry as those row functions; `KernelValue` passes from blocks to whole arrays (the blocks tile them);
  `RefValue` reads the reference's stages entry by entry as the same functions; here the five claims are assembled.
  The kernel's text is read over the extended reals as it stands, no operation replaced, so the claim that relates
  the two readings of the kernel has no conjunct.
-/
import proofs.«139242_j37263136260605_1_alg».proof.Defs
import proofs.«139242_j37263136260605_1_alg».proof.Proof.Gen.Kernel
import proofs.«139242_j37263136260605_1_alg».proof.Proof.Gen.Kernel.Skeleton
import proofs.«139242_j37263136260605_1_alg».proof.Proof.Gen.Kernel.Launch
import proofs.«139242_j37263136260605_1_alg».proof.Proof.Gen.Kernel.Points
import proofs.«139242_j37263136260605_1_alg».proof.Proof.Gen.Kernel.Frame
import proofs.«139242_j37263136260605_1_alg».proof.Proof.Gen.KernelIdeal
import proofs.«139242_j37263136260605_1_alg».proof.Proof.Gen.KernelIdeal.Skeleton
import proofs.«139242_j37263136260605_1_alg».proof.Proof.Gen.KernelIdeal.Launch
import proofs.«139242_j37263136260605_1_alg».proof.Proof.Gen.KernelIdeal.Points
import proofs.«139242_j37263136260605_1_alg».proof.Proof.Gen.KernelIdeal.Frame
import proofs.«139242_j37263136260605_1_alg».proof.Proof.Gen.ReferenceIdeal
import proofs.«139242_j37263136260605_1_alg».proof.Proof.Gen.Pre_finite_inputs
import proofs.«139242_j37263136260605_1_alg».proof.Proof.Gen.KernelIdeal.Value
import proofs.«139242_j37263136260605_1_alg».proof.Proof.Gen.ReferenceIdeal.Run
import proofs.«139242_j37263136260605_1_alg».proof.Proof.Gen.ReferenceIdeal.Read
import proofs.«139242_j37263136260605_1_alg».proof.Proof.KernelValue
import proofs.«139242_j37263136260605_1_alg».proof.Proof.RefValue
import Idealize.ShloMosaic.Adequacy
import Idealize.ShloMosaic.Init

noncomputable section

namespace Cert.Proof

open Idealize.ShloMosaic Idealize.ShloMosaic.TcCoe Idealize.SL.Sem Cert.MutualAttn

/-- The word-level kernel runs to the end without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the two result arrays at the specification's functions of the argument arrays: the kernel
    block by block, the reference stage by stage; the argument arrays agree by hypothesis. -/
theorem algebraic : Cert.algebraic_KernelIdeal_ReferenceIdeal := by
  intro m ρ m' ρ' _ hagree
  refine ⟨fun c => resultP (Cert.KernelIdeal.ArrayValue.argP m c) (Cert.KernelIdeal.ArrayValue.argQ m c)
      (Cert.KernelIdeal.ArrayValue.argW m c),
    fun c => resultQ (Cert.KernelIdeal.ArrayValue.argP m c) (Cert.KernelIdeal.ArrayValue.argQ m c)
      (Cert.KernelIdeal.ArrayValue.argW m c),
    Cert.KernelIdeal.ArrayValue.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · rw [(hagree c).1, (hagree c).2.1, (hagree c).2.2]
    exact (Cert.ReferenceIdeal.Read.val_main_v35_eq _ _ _).trans (Cert.ReferenceIdeal.RefValue.resultP_eq _ _ _)
  · rw [(hagree c).1, (hagree c).2.1, (hagree c).2.2]
    exact (Cert.ReferenceIdeal.Read.val_main_v36_eq _ _ _).trans (Cert.ReferenceIdeal.RefValue.resultQ_eq _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
